-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S1x64x128x128 : Shape := ⟨4, ![1, 64, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S16x256x128x128, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  rotates_S1x64x128x128_d2 : S1x64x128x128.Rotates 2 none
  iota_S1x64x128x128_d2_w32 : S1x64x128x128.Iotas .tc 32 [2]
  rotates_S1x64x128x128_d3 : S1x64x128x128.Rotates 3 none
  iota_S1x64x128x128_d3_w32 : S1x64x128x128.Iotas .tc 32 [3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x256x128x128.size a
  hwx0_0 : ∀ i : grid0.Coords, EltTy.bits .f32 = 32 ∨ (Rect.block (s := S16x256x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S16x256x128x128.size a
  hwx0_1 : ∀ i : grid0.Coords, EltTy.bits .f32 = 32 ∨ (Rect.block (s := S16x256x128x128) S1x64x128x128.size (cc0_transform_1 i) (hinb0_1 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S_, .f32⟩
  | .hbm, ⟨2, _⟩ => ⟨S_, .f32⟩
  | .hbm, ⟨3, _⟩ => ⟨S16x256x128x128, .f32⟩
  | .hbm, ⟨4, _⟩ => ⟨S_, .f32⟩
  | .hbm, ⟨5, _⟩ => ⟨S_, .f32⟩
  | .hbm, ⟨6, _⟩ => ⟨S16x256x128x128, .f32⟩
  | .hbm, ⟨7, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_call1_cst : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x256x128x128_S16x256x128x128_w1s1p0_0_w1s1p0_0_w128s1p0_127_w1s1p0_0 : S16x256x128x128.ReduceWindows (![1, 1, 128, 1] : Fin 4 → Nat) ![1, 1, 1, 1] ![0, 0, 0, 0] ![0, 0, 127, 0] S16x256x128x128
  h_S_ : 0 < S_.numel
  reduceWindows_S16x256x128x128_S16x256x128x128_w1s1p0_0_w1s1p0_0_w1s1p0_0_w128s1p0_127 : S16x256x128x128.ReduceWindows (![1, 1, 1, 128] : Fin 4 → Nat) ![1, 1, 1, 1] ![0, 0, 0, 0] ![0, 0, 0, 127] S16x256x128x128

variable [Facts₀]

class Facts : Prop extends Facts₀ where

variable [Facts]
-- ==== Proof.WindowMax.lean ====
/-
  Running maxima over a window, on the extended reals.

  A line of `N` entries is continued past its end by `⊥` (`padded`); `winMax g w h` is the largest of the `w`
  entries of `g` from position `h` on, taken as the left fold of `max` from `⊥`. Two facts carry everything that
  follows: a window of `a + b` entries is the larger of its first `a` and its last `b` (`winMax_add`), and a window
  that lies wholly past the end of a padded line is `⊥` (`winMax_padded_past`). Together they give the doubling
  step `winMax_double`: the window of `2w` entries from `h` is the window of `w` from `h` joined, where
  `h + w` is still on the line, with the window of `w` from `h + w`.
-/
import Idealize.ShloMosaic.PureOps.Ideal

noncomputable section

namespace Cert.CornerPool

/-- A line of `N` extended reals, continued by `⊥` past its end. -/
def padded {N : ℕ} (f : Fin N → EReal) (j : ℕ) : EReal := if h : j < N then f ⟨j, h⟩ else ⊥

theorem padded_lt {N : ℕ} (f : Fin N → EReal) {j : ℕ} (h : j < N) : padded f j = f ⟨j, h⟩ := dif_pos h

theorem padded_ge {N : ℕ} (f : Fin N → EReal) {j : ℕ} (h : N ≤ j) : padded f j = ⊥ := dif_neg (Nat.not_lt.2 h)

/-- A left fold of `max` from `a` is `a` joined with the fold from `⊥`. -/
theorem foldl_max_init {ι : Type} (φ : ι → EReal) (l : List ι) (a : EReal) :
    l.foldl (fun r k => max r (φ k)) a = max a (l.foldl (fun r k => max r (φ k)) ⊥) := by
  induction l generalizing a with
  | nil => simp
  | cons x l ih =>
    rw [List.foldl_cons, List.foldl_cons, ih (max a (φ x)), ih (max ⊥ (φ x)), max_bot_left, max_assoc]

/-- A left fold of `max` from `⊥` over entries that are all `⊥` is `⊥`. -/
theorem foldl_max_bot {ι : Type} (φ : ι → EReal) (l : List ι) (h : ∀ k ∈ l, φ k = ⊥) :
    l.foldl (fun r k => max r (φ k)) ⊥ = ⊥ := by
  induction l with
  | nil => rfl
  | cons x l ih =>
    rw [List.foldl_cons, h x (List.mem_cons_self ..), max_self]
    exact ih fun k hk => h k (List.mem_cons_of_mem _ hk)

/-- The largest of the `w` entries `g h, …, g (h + w - 1)` (`⊥` for `w = 0`). -/
def winMax (g : ℕ → EReal) (w h : ℕ) : EReal := (List.range w).foldl (fun r k => max r (g (h + k))) ⊥

theorem winMax_one (g : ℕ → EReal) (h : ℕ) : winMax g 1 h = g h := by
  show max ⊥ (g (h + 0)) = g h
  rw [max_bot_left, Nat.add_zero]

/-- A window of `a + b` entries is its first `a` joined with its last `b`. -/
theorem winMax_add (g : ℕ → EReal) (a b h : ℕ) : winMax g (a + b) h = max (winMax g a h) (winMax g b (h + a)) := by
  unfold winMax
  rw [List.range_add, List.foldl_append, List.foldl_map, foldl_max_init]
  simp only [Nat.add_assoc]

/-- A window that starts at or past the end of a padded line sees only `⊥`. -/
theorem winMax_padded_past {N : ℕ} (f : Fin N → EReal) (w h : ℕ) (hh : N ≤ h) : winMax (padded f) w h = ⊥ :=
  foldl_max_bot _ _ fun k _ => padded_ge f (Nat.le_trans hh (Nat.le_add_right h k))

/-- THE DOUBLING STEP: on a padded line of `N` entries the window of `w + w` from `h` is the window of `w` from `h`
    joined with the window of `w` from `h + w` where that position is on the line, and with `⊥` where it is not. -/
theorem winMax_double {N : ℕ} (f : Fin N → EReal) (w h : ℕ) :
    winMax (padded f) (w + w) h
      = max (winMax (padded f) w h) (if h + w < N then winMax (padded f) w (h + w) else ⊥) := by
  rw [winMax_add]
  split
  · rfl
  · rw [winMax_padded_past f w (h + w) (Nat.not_lt.1 ‹_›)]

/-- The fold over the `n` positions `0, …, n - 1` as numbered entries is the window from `h`. -/
theorem foldl_finRange_eq_winMax (g : ℕ → EReal) (n h : ℕ) :
    (List.finRange n).foldl (fun r (k : Fin n) => max r (g (h + k.val))) ⊥ = winMax g n h := by
  unfold winMax
  rw [← List.map_coe_finRange_eq_range, List.foldl_map]

end Cert.CornerPool

end
-- ==== Proof.ScanStep.lean ====
/-
  One doubling step of the running maximum, read at an index.

  Along an axis `a` of `n` entries the kernel keeps, at every index, the maximum of the next `w` entries of the
  loaded block on the line through that index (`Scanned x a w cur`); past the end of the line there is nothing, which
  is `⊥` (the line is `padded`). One step rotates the array by `n - w` along the axis — entry `h + w` comes to
  position `h`, the first `w` entries wrapping round to the end —, replaces the wrapped entries (positions
  `h ≥ n - w`, found by comparing the axis coordinate with `n - w`) by `-∞`, and takes the maximum with the array
  itself. By the doubling law of windows (`winMax_double`) the result holds the maximum of the next `2w` entries.
-/
import Idealize.ShloMosaic.Lib.ValueIdx
import Idealize.ShloMosaic.Lib.Pipeline.Value
import Idealize.ShloMosaic.Lib.KernelVsHost
import proofs.«155024_j66623532695931_1_alg».proof.Proof.WindowMax

noncomputable section

namespace Cert.CornerPool

open Idealize.ShloMosaic Idealize.ShloMosaic.ValueIdx

variable {s : Shape}

/-- The entries of `x` on the line through `j` along axis `a`, continued by `⊥` past its end. -/
def line (x : s.Idx → EReal) (a : Fin s.rank) (j : s.Idx) : ℕ → EReal :=
  padded fun k : Fin (s.size a) => x (Function.update j a k)

/-- Moving along the axis does not change the line. -/
theorem line_update (x : s.Idx → EReal) (a : Fin s.rank) (j : s.Idx) (k : s.Coord a) :
    line x a (Function.update j a k) = line x a j := by
  unfold line
  refine congrArg padded (funext fun k' => ?_)
  rw [Function.update_idem]

/-- The line through `j` at `j`'s own position is the entry at `j`. -/
theorem line_self (x : s.Idx → EReal) (a : Fin s.rank) (j : s.Idx) : line x a j (j a).val = x j := by
  unfold line
  rw [padded_lt _ (j a).isLt]
  exact congrArg x (Function.update_eq_self a j)

/-- `cur` holds at every index the maximum of the next `w` entries of `x` along axis `a`. -/
def Scanned (x : s.Idx → EReal) (a : Fin s.rank) (w : ℕ) (cur : s.Idx → EReal) : Prop :=
  ∀ j, cur j = winMax (line x a j) w (j a).val

/-- The block itself holds the windows of one entry. -/
theorem scanned_one (x : s.Idx → EReal) (a : Fin s.rank) : Scanned x a 1 x := fun j => by
  rw [winMax_one, line_self]

/-- A signed comparison of two words below `2 ^ 31` compares the numbers. -/
theorem cmpi_slt_ofNat (n : ℕ) (sb : BitVec 32) (hn : n < 2 ^ 31) (hs : sb.toNat < 2 ^ 31) :
    IntOp.cmpi .slt (BitVec.ofNat 32 n) sb = BitVec.ofBool (decide (n < sb.toNat)) := by
  have h1 : (BitVec.ofNat 32 n).toNat = n := by
    rw [BitVec.toNat_ofNat]; exact Nat.mod_eq_of_lt (by omega)
  show BitVec.ofBool ((BitVec.ofNat 32 n).slt sb) = _
  refine congrArg BitVec.ofBool ?_
  rw [BitVec.slt, BitVec.toInt_eq_toNat_of_lt (by omega), BitVec.toInt_eq_toNat_of_lt (by omega), h1]
  simp

/-- A select on a decided condition is the `if`. -/
theorem select_ofBool {α : Type} (b : Bool) (A B : α) : Scalar.select (BitVec.ofBool b) A B = if b then A else B := by
  cases b <;> rfl

/-- The word `0xFF800000` is `-∞`, the least extended real. -/
theorem ofBits_neg_inf : (Scalar.ofBits .f32 0xFF800000#32 : Ideal .f32) = ⊥ := by
  show Ideal.ofBits .f32 0xFF800000#32 = ⊥
  simp [Ideal.ofBits, Ideal.ieee]

/-- ONE STEP as the kernel spells it: the array against its rotation by `sb` along `a`, the wrapped positions
    (coordinate not below `sb`) masked to `-∞`. -/
def step (a : Fin s.rank) (sb : BitVec 32) (hr : s.Rotates a none) (hi : s.Iotas .tc 32 [a])
    (cur : FVec Ideal s .f32) : FVec Ideal s .f32 :=
  maximumf cur (select (cmpi .slt (iota .tc s 32 [a] hi) (broadcast s sb)) (dynamicRotate a sb none cur hr)
    (broadcast s (Scalar.ofBits .f32 0xFF800000#32)))

/-- A rotation by `n - w` read at a position `h` with `h + w` on the line is the entry at `h + w`. -/
theorem dynamicRotate_fwd (a : Fin s.rank) (sb : BitVec 32) (hr : s.Rotates a none) (cur : s.Idx → EReal) (w : ℕ)
    (hw : sb.toNat + w = s.size a) (hw0 : 0 < w) (j : s.Idx) (hj : (j a).val + w < s.size a) :
    dynamicRotate a sb none cur hr j = cur (Function.update j a ⟨(j a).val + w, hj⟩) := by
  refine dynamicRotate_apply a sb cur hr j _ fun b => ?_
  by_cases hb : b = a
  · subst hb
    rw [if_pos rfl, Function.update_self, Nat.mod_eq_of_lt (by omega : sb.toNat < s.size b)]
    show (j b).val + w = _
    rw [Nat.mod_eq_of_lt (by omega)]
    omega
  · rw [if_neg hb, Function.update_of_ne hb]

/-- THE STEP DOUBLES THE WINDOW: from windows of `w` entries to windows of `w + w`, when the rotation amount is
    `n - w` (`sb + w = n`). -/
theorem scanned_step (x : FVec Ideal s .f32) (a : Fin s.rank) (sb : BitVec 32) (hr : s.Rotates a none)
    (hi : s.Iotas .tc 32 [a]) (w : ℕ) (cur : FVec Ideal s .f32) (hw : sb.toNat + w = s.size a) (hw0 : 0 < w)
    (hsz : s.size a < 2 ^ 31) (h : Scanned x a w cur) : Scanned x a (w + w) (step a sb hr hi cur) := by
  intro j
  show max (cur j) (Scalar.select (IntOp.cmpi .slt (iota .tc s 32 [a] hi j) sb) (dynamicRotate a sb none cur hr j)
    (Scalar.ofBits .f32 0xFF800000#32)) = _
  have hja := (j a).isLt
  rw [iota_single_apply, cmpi_slt_ofNat _ _ (by omega) (by omega), select_ofBool, ofBits_neg_inf]
  unfold line
  rw [winMax_double]
  refine congrArg₂ max (h j) ?_
  by_cases hlt : (j a).val < sb.toNat
  · have hj : (j a).val + w < s.size a := by omega
    rw [if_pos (decide_eq_true hlt), if_pos hj, dynamicRotate_fwd a sb hr cur w hw hw0 j hj, h, line_update,
      Function.update_self]
    rfl
  · rw [if_neg (by simpa using hlt), if_neg (by omega)]

/-- CORNER POOLING along two axes: at every index the maximum of the next `n` entries along axis `a` plus the maximum
    of the next `n` entries along axis `b` (with `n` the axes' extent: the maxima from the index to the end of each
    line). -/
def pool (x : s.Idx → EReal) (a b : Fin s.rank) (n : ℕ) : s.Idx → EReal :=
  fun j => winMax (line x a j) n (j a).val + winMax (line x b j) n (j b).val

/-- A line of an array read through an embedding of a block that moves along axis `a` as the array's axis `a'` does
    (same extent, the block's position on `a` the array's on `a'`) is the array's line through the embedded index. -/
theorem line_comp {sb : Shape} (X : s.Idx → EReal) (e : sb.Idx → s.Idx) (a : Fin sb.rank) (a' : Fin s.rank)
    (ha : sb.size a = s.size a')
    (hea : ∀ (y : sb.Idx) (k : Fin (sb.size a)), e (Function.update y a k) = Function.update (e y) a' ⟨k.val, ha ▸ k.isLt⟩)
    (y : sb.Idx) : line (fun y' => X (e y')) a y = line X a' (e y) := by
  funext p
  unfold line padded
  by_cases hp : p < sb.size a
  · rw [dif_pos hp, dif_pos (ha ▸ hp)]; exact congrArg X (hea y ⟨p, hp⟩)
  · rw [dif_neg hp, dif_neg (ha ▸ hp)]

/-- Corner pooling of a block that spans axes `a`, `b` whole is the block of the array's corner pooling. -/
theorem pool_comp {sb : Shape} (X : s.Idx → EReal) (e : sb.Idx → s.Idx) (a b : Fin sb.rank) (a' b' : Fin s.rank) (n : ℕ)
    (ha : sb.size a = s.size a') (hb : sb.size b = s.size b')
    (hea : ∀ (y : sb.Idx) (k : Fin (sb.size a)), e (Function.update y a k) = Function.update (e y) a' ⟨k.val, ha ▸ k.isLt⟩)
    (heb : ∀ (y : sb.Idx) (k : Fin (sb.size b)), e (Function.update y b k) = Function.update (e y) b' ⟨k.val, hb ▸ k.isLt⟩)
    (hva : ∀ y, (e y a').val = (y a).val) (hvb : ∀ y, (e y b').val = (y b).val) (y : sb.Idx) :
    pool (fun y' => X (e y')) a b n y = pool X a' b' n (e y) := by
  unfold pool
  rw [line_comp X e a a' ha hea y, line_comp X e b b' hb heb y, hva y, hvb y]

end Cert.CornerPool

end
-- ==== Proof.PayloadScan.lean ====
/-
  The kernel's payload is corner pooling of the loaded block.

  The stored value is `top + left`, each summand seven doubling steps (`step`, with rotation amounts
  127, 126, 124, 120, 112, 96, 64: windows of 1, 2, 4, …, 64 entries doubled) of the loaded block along one axis
  — the rows (axis 2) for `top`, the columns (axis 3) for `left`. Seven doublings from windows of one entry give
  windows of 128 entries, the whole axis: at every index the maximum from the index to the end of its line.
-/
import proofs.«155024_j66623532695931_1_alg».proof.Proof.Gen.KernelIdeal.Skeleton
import proofs.«155024_j66623532695931_1_alg».proof.Proof.ScanStep

noncomputable section

namespace Cert.KernelIdeal.Corner

open Cert.KernelIdeal Cert.KernelIdeal.Gen Cert.CornerPool Idealize.ShloMosaic Idealize.ShloMosaic.ValueIdx

/-- Seven doubling steps along axis `a`. -/
def scan (a : Fin S1x64x128x128.rank) (hr : S1x64x128x128.Rotates a none) (hi : S1x64x128x128.Iotas .tc 32 [a])
    (x : FVec Ideal S1x64x128x128 .f32) : FVec Ideal S1x64x128x128 .f32 :=
  step a 64#32 hr hi (step a 96#32 hr hi (step a 112#32 hr hi (step a 120#32 hr hi (step a 124#32 hr hi
    (step a 126#32 hr hi (step a 127#32 hr hi x))))))

/-- The store's payload, as one term of the loaded block, is the two scans added. -/
theorem payload_eq (x : Vec Ideal S1x64x128x128 .f32) :
    k0_pay1 (k0_pay4 (k0_pay2 x) (k0_pay3 x) (iota .tc S1x64x128x128 32 [2] iota_S1x64x128x128_d2_w32)) (k0_pay5 x)
        (k0_pay6 x) (iota .tc S1x64x128x128 32 [3] iota_S1x64x128x128_d3_w32)
      = addf (scan 2 rotates_S1x64x128x128_d2 iota_S1x64x128x128_d2_w32 x)
          (scan 3 rotates_S1x64x128x128_d3 iota_S1x64x128x128_d3_w32 x) := rfl

/-- Seven doublings reach the whole axis of 128 entries. -/
theorem scan_scanned (a : Fin S1x64x128x128.rank) (hr : S1x64x128x128.Rotates a none)
    (hi : S1x64x128x128.Iotas .tc 32 [a]) (ha : S1x64x128x128.size a = 128) (x : FVec Ideal S1x64x128x128 .f32) :
    Scanned x a 128 (scan a hr hi x) := by
  have hsz : S1x64x128x128.size a < 2 ^ 31 := by rw [ha]; decide
  have h1 := scanned_one x a
  have h2 := scanned_step x a 127#32 hr hi 1 _ (by rw [ha]; rfl) (by decide) hsz h1
  have h4 := scanned_step x a 126#32 hr hi 2 _ (by rw [ha]; rfl) (by decide) hsz h2
  have h8 := scanned_step x a 124#32 hr hi 4 _ (by rw [ha]; rfl) (by decide) hsz h4
  have h16 := scanned_step x a 120#32 hr hi 8 _ (by rw [ha]; rfl) (by decide) hsz h8
  have h32 := scanned_step x a 112#32 hr hi 16 _ (by rw [ha]; rfl) (by decide) hsz h16
  have h64 := scanned_step x a 96#32 hr hi 32 _ (by rw [ha]; rfl) (by decide) hsz h32
  exact scanned_step x a 64#32 hr hi 64 _ (by rw [ha]; rfl) (by decide) hsz h64

/-- THE PAYLOAD AT AN INDEX: corner pooling of the loaded block along axes 2 and 3. -/
theorem payload_apply (x : Vec Ideal S1x64x128x128 .f32) (j : S1x64x128x128.Idx) :
    k0_pay1 (k0_pay4 (k0_pay2 x) (k0_pay3 x) (iota .tc S1x64x128x128 32 [2] iota_S1x64x128x128_d2_w32)) (k0_pay5 x)
        (k0_pay6 x) (iota .tc S1x64x128x128 32 [3] iota_S1x64x128x128_d3_w32) j
      = Cert.CornerPool.pool x 2 3 128 j := by
  rw [payload_eq]
  show scan 2 rotates_S1x64x128x128_d2 iota_S1x64x128x128_d2_w32 x j
    + scan 3 rotates_S1x64x128x128_d3 iota_S1x64x128x128_d3_w32 x j = _
  rw [scan_scanned 2 _ _ rfl x j, scan_scanned 3 _ _ rfl x j]
  rfl

end Cert.KernelIdeal.Corner

end
-- ==== Proof.KernelValue.lean ====
/-
  From blocks to the array: the kernel's result is corner pooling of its argument.

  Grid point `(b, c)` stages the block `x[b, 64c : 64c + 64, :, :]` and writes back the payload of that block at the
  same place. A block spans the rows and the columns whole, so the lines along axes 2 and 3 through an element of a
  block are the array's lines through it, and corner pooling of the block is the block of the array's corner pooling
  (`pool_comp`). The 16 × 4 blocks tile the array, so after the run the result array is `pool x 2 3 128`.
-/
import proofs.«155024_j66623532695931_1_alg».proof.Proof.KernelIdealFrame
import proofs.«155024_j66623532695931_1_alg».proof.Proof.PayloadScan
import Idealize.ShloMosaic.Lib.Pipeline.Value

noncomputable section

namespace Cert.KernelIdeal.Corner

open Cert.KernelIdeal Cert.KernelIdeal.Gen Cert.KernelIdeal.GenP Cert.CornerPool
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The result array as one function of the argument array: its corner pooling along the rows and the columns. -/
abbrev G (X : S16x256x128x128.Idx → EReal) : S16x256x128x128.Idx → EReal := Cert.CornerPool.pool X 2 3 128

/-- The printed index maps, decided over the grid: the input's block moves with the output's, both span axes 2 and 3
    whole, and the block indices stay in their ranges. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 3 :=
  (by decide +kernel : ∀ t : Fin grid0.N, _)

/-- Every block of the array is some point's. -/
theorem idx_onto : ∀ (q0 : Fin 16) (q1 : Fin 4), ∃ t : Fin cfg0.N, win0_1.index t = ![q0.val, q1.val, 0, 0] :=
  (by decide +kernel : ∀ (q0 : Fin 16) (q1 : Fin 4), ∃ t : Fin grid0.N, win0_1.index t = ![q0.val, q1.val, 0, 0])

/-- Where an element of the output's block at point `t` sits in the array: block index times block size plus its own
    coordinate, on every axis. -/
theorem emb1_val (t : Fin cfg0.N) (y : S1x64x128x128.Idx) (b : Fin 4) :
    ((((cfg0.win 1).blk t).view.emb y : S16x256x128x128.Idx) b).val = win0_1.index t b * S1x64x128x128.size b + (y b).val := by
  match b with
  | ⟨0, _⟩ => show win0_1.index t (0 : Fin 4) * 1 + 1 * (y 0).val = win0_1.index t (0 : Fin 4) * 1 + (y 0).val; omega
  | ⟨1, _⟩ => show win0_1.index t (1 : Fin 4) * 64 + 1 * (y 1).val = win0_1.index t (1 : Fin 4) * 64 + (y 1).val; omega
  | ⟨2, _⟩ => show win0_1.index t (2 : Fin 4) * 128 + 1 * (y 2).val = win0_1.index t (2 : Fin 4) * 128 + (y 2).val; omega
  | ⟨3, _⟩ => show win0_1.index t (3 : Fin 4) * 128 + 1 * (y 3).val = win0_1.index t (3 : Fin 4) * 128 + (y 3).val; omega

/-- The input's block at a point is the argument read at the output block's places. -/
theorem iblk_eq (c : Dev nD) (t : Fin cfg0.N) :
    (iblk m c 0 t : S1x64x128x128.Idx → EReal)
      = fun y => (V m c main_arg0 : S16x256x128x128.Idx → EReal) (((cfg0.win 1).blk t).view.emb y) := by
  obtain ⟨e0, e1, e2, e3, e4, e5, -, -⟩ := idx_facts t
  funext y
  show V m c main_arg0 (((cfg0.win 0).blk t).view.emb y) = V m c main_arg0 (((cfg0.win 1).blk t).view.emb y)
  refine congrArg (V m c main_arg0) (funext fun a => Fin.ext ?_)
  match a with
  | ⟨0, _⟩ => show win0_0.index t (0 : Fin 4) * 1 + 1 * (y 0).val = win0_1.index t (0 : Fin 4) * 1 + 1 * (y 0).val; omega
  | ⟨1, _⟩ => show win0_0.index t (1 : Fin 4) * 64 + 1 * (y 1).val = win0_1.index t (1 : Fin 4) * 64 + 1 * (y 1).val; omega
  | ⟨2, _⟩ => show win0_0.index t (2 : Fin 4) * 128 + 1 * (y 2).val = win0_1.index t (2 : Fin 4) * 128 + 1 * (y 2).val; omega
  | ⟨3, _⟩ => show win0_0.index t (3 : Fin 4) * 128 + 1 * (y 3).val = win0_1.index t (3 : Fin 4) * 128 + 1 * (y 3).val; omega

/-- Moving inside a block along an axis the block spans whole (block index 0 there, same extent) moves the same way
    in the array. -/
theorem emb1_update (t : Fin cfg0.N) (a : Fin 4) (hi : win0_1.index t a = 0)
    (ha : S1x64x128x128.size a = S16x256x128x128.size a) (y : S1x64x128x128.Idx) (k : Fin (S1x64x128x128.size a)) :
    (((cfg0.win 1).blk t).view.emb (Function.update y a k) : S16x256x128x128.Idx)
      = Function.update (((cfg0.win 1).blk t).view.emb y) a ⟨k.val, ha ▸ k.isLt⟩ := by
  funext b
  apply Fin.ext
  rw [emb1_val]
  by_cases hb : b = a
  · subst hb
    rw [Function.update_self, Function.update_self, hi]
    show 0 * _ + k.val = k.val
    omega
  · rw [Function.update_of_ne hb, Function.update_of_ne hb, emb1_val]

/-- WHAT POINT `t` WRITES BACK is block `t` of the corner pooling of the argument array as the region finds it. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  unfold out0_1
  rw [View.canon_unit_zero hz]
  simp only [View.ld_unit_zero (S := S1x64x128x128) hz]
  obtain ⟨-, -, -, -, e4, e5, -, -⟩ := idx_facts t
  funext y
  refine (payload_apply (iblk m c 0 t) y).trans ?_
  rw [iblk_eq m c t]
  refine (pool_comp (V m c main_arg0 : S16x256x128x128.Idx → EReal) (fun y => ((cfg0.win 1).blk t).view.emb y)
    2 3 2 3 128 rfl rfl (emb1_update t 2 e4 rfl) (emb1_update t 3 e5 rfl) (fun y => ?_) (fun y => ?_) y).trans rfl
  · rw [emb1_val, e4]; show 0 * _ + (y 2).val = _; omega
  · rw [emb1_val, e5]; show 0 * _ + (y 3).val = _; omega

/-- An index of the array is in point `t`'s block iff each coordinate is in the block's range on its axis. -/
theorem mem_blk (t : Fin cfg0.N) (i : S16x256x128x128.Idx) :
    i ∈ ((cfg0.win 1).blk t).view.set ↔ ∀ a : Fin 4, win0_1.index t a * S1x64x128x128.size a ≤ (i a).val
      ∧ (i a).val < win0_1.index t a * S1x64x128x128.size a + S1x64x128x128.size a := by
  show i ∈ ((View.whole main_v0).slice (win0_1.rect t)).set ↔ _
  rw [View.set_slice_whole, Rect.mem_set_unit]
  exact Iff.rfl

/-- The blocks tile the array: every index is in the block of the point `(i₀, i₁ / 64)`. -/
theorem cover (i : S16x256x128x128.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 1).val / 64, by omega⟩
  have q0 : win0_1.index t (0 : Fin 4) = (i 0).val := congrFun ht 0
  have q1 : win0_1.index t (1 : Fin 4) = (i 1).val / 64 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE RESULT ARRAY after the run is the corner pooling of the argument array. -/
theorem final (c : Dev nD) :
    (dats m 0 c).arrAt 1 cfg0.N = G (m ((c : Thread nD τ).loc main_arg0)) :=
  (dats m 0 c).arrAt_eq_of_cover 1 (G (V m c main_arg0)) (fun t _ => flushed_eq m c t) cover

/-- After the frame run the result array is `(dats m 0 c).arrAt 1 N` -/
theorem post1 (r : PUnit × MemSt nD τ sig (Elt Ideal)) (h : Pipeline.FramePost cfgs (dats m) 0 (V m) r) (c : Dev nD) :
    r.2.mem ((c : Thread nD τ).loc main_v0) = (dats m 0 c).arrAt 1 cfg0.N :=
  (h c).1 1

/-- and the argument array is as launched: its window stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- THE KERNEL'S RUN, read: every weakly fair execution terminates with the result array at the corner pooling of the
    argument array and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(post1 m r h c).trans (final m c), kept_main_arg0 m r h c⟩) (run_main m ρ)

end Cert.KernelIdeal.Corner

end
-- ==== Proof.RefWindow.lean ====
/-
  The reference's windowed maximum, read at an index.

  `reduce_window` with `max` over a window of `n` positions along ONE axis (one position on every other axis),
  stride one, no padding in front and `n - 1` positions of padding behind, started from `-∞`: the result at an index
  is the left fold of `max` over the window's positions in row-major order — the entry of the operand where the
  position is on the line, the initial value `-∞` where it is padding. That is the window maximum `winMax` of the
  padded line through the index: the reverse cumulative maximum.
-/
import proofs.«155024_j66623532695931_1_alg».proof.Proof.ScanStep

noncomputable section

namespace Cert.CornerPool

open Idealize.ShloMosaic

/-- In a rank-4 window with one position on every axis but `a`, the `n`-th position in row-major order has
    coordinate `n` on axis `a` and `0` on the others. -/
theorem window_pos {window : Fin 4 → ℕ} (a : Fin 4) (hwin : ∀ b, b ≠ a → window b = 1)
    (n : Fin (⟨4, window⟩ : Shape).numel) (b : Fin 4) :
    (((⟨4, window⟩ : Shape).rowMajor.symm n) b).val = if b = a then n.val else 0 := by
  generalize hy : (⟨4, window⟩ : Shape).rowMajor.symm n = y
  have hn : n = (⟨4, window⟩ : Shape).rowMajor y := by
    rw [← hy]; exact ((⟨4, window⟩ : Shape).rowMajor.apply_symm_apply n).symm
  have hv : n.val = (((y 0).val * window 1 + (y 1).val) * window 2 + (y 2).val) * window 3 + (y 3).val := by
    rw [hn]; exact Shape.rowMajor_val_four y
  have h0 : ∀ c, c ≠ a → (y c).val = 0 := fun c hc => by
    have : (y c).val < window c := (y c).isLt
    rw [hwin c hc] at this; omega
  by_cases hb : b = a
  · subst hb
    rw [if_pos rfl, hv]
    fin_cases b
    · rw [h0 1 (by decide), h0 2 (by decide), h0 3 (by decide), hwin 1 (by decide), hwin 2 (by decide), hwin 3 (by decide)]
      simp
    · rw [h0 0 (by decide), h0 2 (by decide), h0 3 (by decide), hwin 2 (by decide), hwin 3 (by decide)]
      simp
    · rw [h0 0 (by decide), h0 1 (by decide), h0 3 (by decide), hwin 1 (by decide), hwin 3 (by decide)]
      simp
    · rw [h0 0 (by decide), h0 1 (by decide), h0 2 (by decide), hwin 1 (by decide), hwin 2 (by decide)]
      simp
  · rw [if_neg hb, h0 b hb]

/-- Such a window has as many positions as its one long axis. -/
theorem window_numel {window : Fin 4 → ℕ} (a : Fin 4) (hwin : ∀ b, b ≠ a → window b = 1) :
    (⟨4, window⟩ : Shape).numel = window a := by
  show ∏ b, window b = window a
  rw [Fin.prod_univ_four]
  fin_cases a
  · rw [hwin 1 (by decide), hwin 2 (by decide), hwin 3 (by decide)]; simp
  · rw [hwin 0 (by decide), hwin 2 (by decide), hwin 3 (by decide)]; simp
  · rw [hwin 0 (by decide), hwin 1 (by decide), hwin 3 (by decide)]; simp
  · rw [hwin 0 (by decide), hwin 1 (by decide), hwin 2 (by decide)]; simp

/-- THE REFERENCE'S WINDOWED MAXIMUM AT AN INDEX is the window maximum of the padded line through the index. -/
theorem reduceWindow_max_apply {d : Fin 4 → ℕ} (x : (⟨4, d⟩ : Shape).Idx → EReal) (a : Fin 4)
    (window strides lo hi : Fin 4 → ℕ) {u : Shape} (init : u.Idx → EReal)
    (h : (⟨4, d⟩ : Shape).ReduceWindows window strides lo hi ⟨4, d⟩) (hu : 0 < u.numel)
    (hwin : ∀ b, b ≠ a → window b = 1) (hst : ∀ b, strides b = 1) (hlo : ∀ b, lo b = 0)
    (hinit : init (Shape.Idx.first hu) = ⊥) (j : (⟨4, d⟩ : Shape).Idx) :
    Host.reduceWindow (s := ⟨4, d⟩) (max : EReal → EReal → EReal) window strides lo hi x init h hu j
      = winMax (line x a j) (window a) (j a).val := by
  unfold Host.reduceWindow
  dsimp only
  rw [hinit, ← window_numel a hwin, ← foldl_finRange_eq_winMax]
  refine congrArg (fun φ => List.foldl φ ⊥ (List.finRange (⟨4, window⟩ : Shape).numel)) (funext fun r => funext fun n => ?_)
  refine congrArg (max r) ?_
  have hp : ∀ b : Fin 4, (j (b.cast h.1.symm)).val * strides b + (((⟨4, window⟩ : Shape).rowMajor.symm n) b).val
      = (j b).val + if b = a then n.val else 0 := fun b => by
    rw [hst b, Nat.mul_one, window_pos a hwin n b]; rfl
  by_cases hin : (j a).val + n.val < d a
  · rw [dif_pos (fun b => by
      rw [hp b, hlo b]
      refine ⟨Nat.zero_le _, ?_⟩
      by_cases hb : b = a
      · subst hb; rw [if_pos rfl]; exact hin
      · rw [if_neg hb]; exact (j b).isLt)]
    unfold line
    rw [padded_lt _ hin]
    refine congrArg x (funext fun b => Fin.ext ?_)
    show (j (b.cast h.1.symm)).val * strides b + (((⟨4, window⟩ : Shape).rowMajor.symm n) b).val - lo b = _
    rw [hp b, hlo b, Nat.sub_zero]
    by_cases hb : b = a
    · subst hb; rw [if_pos rfl, Function.update_self]
    · rw [if_neg hb, Function.update_of_ne hb, Nat.add_zero]
  · rw [dif_neg (fun hall => hin (by
      have := (hall a).2
      rw [hp a, hlo a, if_pos rfl, Nat.sub_zero] at this
      exact this))]
    unfold line
    rw [padded_ge _ (Nat.not_lt.1 hin)]

end Cert.CornerPool

end
-- ==== Proof.RefValue.lean ====
/-
  The reference computes corner pooling.

  Its result is the sum of two windowed maxima of the argument — windows of 128 positions along axis 2, and along
  axis 3, padded behind by 127 positions of the initial value `-∞` —, each the window maximum of the padded line
  through the index (`reduceWindow_max_apply`): the maximum from the index to the end of the line.
-/
import proofs.«155024_j66623532695931_1_alg».proof.Proof.ReferenceRun
import proofs.«155024_j66623532695931_1_alg».proof.Proof.RefWindow
import Idealize.ShloMosaic.Lib.Pipeline.Value

noncomputable section

namespace Cert.ReferenceIdeal.Corner

open Cert.ReferenceIdeal Cert.ReferenceIdeal.Gen Cert.CornerPool Idealize.ShloMosaic Idealize.ShloMosaic.ValueIdx

/-- The windows start from `-∞`. -/
theorem init_eq :
    broadcastInDim S_ ![] bcast_S_S_ (constant (F := Ideal) S_ .f32 0xFF800000#32) (Shape.Idx.first h_S_) = (⊥ : EReal) :=
  (broadcastInDim_apply _ bcast_S_S_ (constant (F := Ideal) S_ .f32 0xFF800000#32) (Shape.Idx.first h_S_)
    (fun a => a.elim0) (fun a => a.elim0)).trans ofBits_neg_inf

/-- THE REFERENCE'S RESULT TERM is the corner pooling of its argument. -/
theorem result_eq (X : FVec Ideal S16x256x128x128 .f32) :
    addf (Host.reduceWindow FloatOps.maximumf ![1, 1, 128, 1] ![1, 1, 1, 1] ![0, 0, 0, 0] ![0, 0, 127, 0] X
        (broadcastInDim S_ ![] bcast_S_S_ (constant (F := Ideal) S_ .f32 0xFF800000#32))
        reduceWindows_S16x256x128x128_S16x256x128x128_w1s1p0_0_w1s1p0_0_w128s1p0_127_w1s1p0_0 h_S_)
      (Host.reduceWindow FloatOps.maximumf ![1, 1, 1, 128] ![1, 1, 1, 1] ![0, 0, 0, 0] ![0, 0, 0, 127] X
        (broadcastInDim S_ ![] bcast_S_S_ (constant (F := Ideal) S_ .f32 0xFF800000#32))
        reduceWindows_S16x256x128x128_S16x256x128x128_w1s1p0_0_w1s1p0_0_w1s1p0_0_w128s1p0_127 h_S_)
      = Cert.CornerPool.pool X 2 3 128 := by
  funext j
  rw [addf_apply]
  unfold Cert.CornerPool.pool
  refine congrArg₂ (· + ·) ?_ ?_
  · exact reduceWindow_max_apply X 2 ![1, 1, 128, 1] ![1, 1, 1, 1] ![0, 0, 0, 0] ![0, 0, 127, 0] _ _ h_S_
      (by decide) (by decide) (by decide) init_eq j
  · exact reduceWindow_max_apply X 3 ![1, 1, 1, 128] ![1, 1, 1, 1] ![0, 0, 0, 0] ![0, 0, 0, 127] _ _ h_S_
      (by decide) (by decide) (by decide) init_eq j

end Cert.ReferenceIdeal.Corner

end
-- ==== Proof.lean ====
/-
  Corner pooling (top + left): `out[b, c, h, w] = max_{h' ≥ h} x[b, c, h', w] + max_{w' ≥ w} x[b, c, h, w']`, on the
  extended reals.

  THE KERNEL computes each running maximum by seven doubling steps inside a block `x[b, 64c : 64c + 64, :, :]`: it
  rotates the block by `128 - d` along the axis (so that entry `h + d` comes to position `h`), masks the entries that
  wrapped round (positions `h ≥ 128 - d`) to `-∞`, and takes the maximum with the block, for `d = 1, 2, 4, …, 64`.
  After the step with `d = w` every position holds the maximum of the next `2w` entries of its line, past the end of
  the line nothing (`⊥`, which `max` ignores): Proof/WindowMax.lean (the doubling law of windows), Proof/ScanStep.lean
  (one step at an index), Proof/PayloadScan.lean (the payload is seven steps along the rows plus seven along the
  columns), Proof/KernelValue.lean (the blocks tile the array and span both axes whole, so the result array is the
  corner pooling of the argument array).
  THE REFERENCE computes each running maximum as a `reduce_window` with `max` over 128 positions, padded behind with
  127 copies of the initial value `-∞`: the left fold of `max` over the same window of the same padded line
  (Proof/RefWindow.lean, Proof/RefValue.lean).
  Both results are the same function `pool x 2 3 128` of the argument, added in the same order (top, then left); no
  law of the extended reals beyond `max ⊥ a = a` and the associativity of `max` is used, and the precondition
  (finite inputs) is never opened. The kernel's idealization rewrote nothing, so `preserves` is `True`.
-/
import proofs.«155024_j66623532695931_1_alg».proof.Defs
import proofs.«155024_j66623532695931_1_alg».proof.Proof.Gen.Kernel
import proofs.«155024_j66623532695931_1_alg».proof.Proof.Gen.KernelIdeal
import proofs.«155024_j66623532695931_1_alg».proof.Proof.Gen.ReferenceIdeal
import proofs.«155024_j66623532695931_1_alg».proof.Proof.Gen.Pre_finite_inputs
import proofs.«155024_j66623532695931_1_alg».proof.Proof.KernelFrame
import proofs.«155024_j66623532695931_1_alg».proof.Proof.KernelValue
import proofs.«155024_j66623532695931_1_alg».proof.Proof.RefValue
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten for the extended reals. -/
theorem preserves : Cert.preserves_Kernel_KernelIdeal := trivial

/-- From memories that agree on the argument, the kernel's result array and the reference's are both the corner
    pooling of the argument. -/
theorem algebraic : Cert.algebraic_KernelIdeal_ReferenceIdeal := by
  intro m ρ m' ρ' _ hagree
  refine ⟨_, Cert.KernelIdeal.Corner.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Corner.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
